-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x256 : Shape := ⟨3, ![2, 1024, 256]⟩
abbrev S32x256 : Shape := ⟨2, ![32, 256]⟩
abbrev S_ : Shape := ⟨0, ![]⟩
abbrev S32 : Shape := ⟨1, ![32]⟩

class Facts : Prop where
  bcast_S_S2x1024x256 : S_.BroadcastsInDim S2x1024x256 (![] : Fin 0 → Fin S2x1024x256.rank)
  reducesTo_S2x1024x256_S_d0_1_2 : S2x1024x256.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_
  reducesTo_S_S_d : S_.ReducesTo [] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v12 : IVec S_ 1) (main_v15 : IVec S32x256 1) (main_c_5 : IVec S_ 1) : IVec S_ 1 :=
  let main_v16 : IVec S_ 1 := (fun x v => Host.reduce IntOp.andi x v reducesTo_S32x256_S_d0_1 h_S_) main_v15 main_c_5
  let main_v17 : IVec S_ 1 := andi main_v12 main_v16
  let main_v18 : FVec F S32 .f32 := Host.absf main_arg4
  let main_cst_6 : FVec F S_ .f32 := constant S_ .f32 0x7F800000#32
  let main_v19 : FVec F S32 .f32 := broadcastInDim S32 ![] bcast_S_S32 main_cst_6
  let main_v20 : IVec S32 1 := cmpf .olt main_v18 main_v19
  let main_c_7 : IVec S_ 1 := constantI S_ 1 1#1
  let main_v21 : IVec S_ 1 := (fun x v => Host.reduce IntOp.andi x v reducesTo_S32_S_d0 h_S_) main_v20 main_c_7
  let main_v22 : IVec S_ 1 := andi main_v17 main_v21
  main_v22

def fn {F : FTy → Type} [FloatOps F] (main_arg0 : FVec F S2x1024x256 .f32) (main_arg1 : FVec F S32x256 .f32) (main_arg2 : FVec F S_ .f32) (main_arg3 : FVec F S32x256 .f32) (main_arg4 : FVec F S32 .f32) : IVec S_ 1 :=
  let main_v0 : FVec F S2x1024x256 .f32 := Host.absf main_arg0
  let main_cst : FVec F S_ .f32 := constant S_ .f32 0x7F800000#32
  let main_v1 : FVec F S2x1024x256 .f32 := broadcastInDim S2x1024x256 ![] bcast_S_S2x1024x256 main_cst
  let main_v2 : IVec S2x1024x256 1 := cmpf .olt main_v0 main_v1
  let main_c : IVec S_ 1 := constantI S_ 1 1#1
  let main_v3 : IVec S_ 1 := (fun x v => Host.reduce IntOp.andi x v reducesTo_S2x1024x256_S_d0_1_2 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S32x256 .f32 := Host.absf main_arg3
  let main_cst_4 : FVec F S_ .f32 := constant S_ .f32 0x7F800000#32
  let main_v14 : FVec F S32x256 .f32 := broadcastInDim S32x256 ![] bcast_S_S32x256 main_cst_4
  let main_v15 : IVec S32x256 1 := cmpf .olt main_v13 main_v14
  let main_c_5 : IVec S_ 1 := constantI S_ 1 1#1
  fn_part1 (F := F) main_arg4 main_v12 main_v15 main_c_5
-- ==== Kernel.lean ====
abbrev S2x1024x256 : Shape := ⟨3, ![2, 1024, 256]⟩
abbrev S32x256 : Shape := ⟨2, ![32, 256]⟩
abbrev S_ : Shape := ⟨0, ![]⟩
abbrev S32 : Shape := ⟨1, ![32]⟩
abbrev S256x256 : Shape := ⟨2, ![256, 256]⟩
abbrev S1x32 : Shape := ⟨2, ![1, 32]⟩
abbrev S256x32 : Shape := ⟨2, ![256, 32]⟩
abbrev S2x1024x256x256 : Shape := ⟨4, ![2, 1024, 256, 256]⟩
abbrev S1x64x256 : Shape := ⟨3, ![1, 64, 256]⟩
abbrev S1x64x256x256 : Shape := ⟨4, ![1, 64, 256, 256]⟩
abbrev S1x8x256 : Shape := ⟨3, ![1, 8, 256]⟩
abbrev S8x256 : Shape := ⟨2, ![8, 256]⟩
abbrev S8x32 : Shape := ⟨2, ![8, 32]⟩
abbrev S1x256x32 : Shape := ⟨3, ![1, 256, 32]⟩
abbrev S8x1x32 : Shape := ⟨3, ![8, 1, 32]⟩
abbrev S8x256x32 : Shape := ⟨3, ![8, 256, 32]⟩
abbrev S2048x32 : Shape := ⟨2, ![2048, 32]⟩
abbrev S2048x256 : Shape := ⟨2, ![2048, 256]⟩
abbrev S8x256x256 : Shape := ⟨3, ![8, 256, 256]⟩
abbrev S1x256x256 : Shape := ⟨3, ![1, 256, 256]⟩
abbrev S1x8x256x256 : Shape := ⟨4, ![1, 8, 256, 256]⟩

abbrev nBuf : Space → Nat
  | .hbm => 21
  | .vmem => 9
  | .smem => 0
  | _ => 0

abbrev bufTy : (tb : Table) → Fin (tcTables nBuf tb) → BufTy
  | .hbm, ⟨0, _⟩ => ⟨S2x1024x256, .f32⟩
  | .hbm, ⟨1, _⟩ => ⟨S32x256, .f32⟩
  | .hbm, ⟨2, _⟩ => ⟨S_, .f32⟩
  | .hbm, ⟨3, _⟩ => ⟨S32x256, .f32⟩
  | .hbm, ⟨4, _⟩ => ⟨S32, .f32⟩
  | .hbm, ⟨5, _⟩ => ⟨S_, .f32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S1x32, .f32⟩
  | .hbm, ⟨16, _⟩ => ⟨S256x32, .f32⟩
  | .hbm, ⟨17, _⟩ => ⟨S256x32, .bf16⟩
  | .hbm, ⟨18, _⟩ => ⟨S256x32, .f32⟩
  | .hbm, ⟨19, _⟩ => ⟨S32x256, .bf16⟩
  | .hbm, ⟨20, _⟩ => ⟨S2x1024x256x256, .f32⟩
  | .local _ .vmem, ⟨0, _⟩ => ⟨S1x64x256, .f32⟩
  | .local _ .vmem, ⟨1, _⟩ => ⟨S1x64x256, .f32⟩
  | .local _ .vmem, ⟨2, _⟩ => ⟨S256x32, .bf16⟩
  | .local _ .vmem, ⟨3, _⟩ => ⟨S256x32, .f32⟩
  | .local _ .vmem, ⟨4, _⟩ => ⟨S32x256, .bf16⟩
  | .local _ .vmem, ⟨5, _⟩ => ⟨S1x32, .f32⟩
  | .local _ .vmem, ⟨6, _⟩ => ⟨S256x256, .f32⟩
  | .local _ .vmem, ⟨7, _⟩ => ⟨S1x64x256x256, .f32⟩
  | .local _ .vmem, ⟨8, _⟩ => ⟨S1x64x256x256, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  let c8_i32 : BitVec 32 := 8#32
  let v10 : BitVec 32 := Scalar.muli c0_i32 c8_i32
  v10
def k0_off1 (c0_i32 : BitVec 32) : Fin 3 → Nat :=
  let c0_9 : Index := 0#32
  let c8_i32 : BitVec 32 := 8#32
  let v10 : BitVec 32 := Scalar.muli c0_i32 c8_i32
  let v11 : BitVec 32 := v10
  let v12 : Index := Scalar.indexCast v11
  let c0_10 : Index := 0#32
  ![0, v12.toNat, 0]
def k0_off2 (c0_i32 : BitVec 32) : Fin 4 → Nat :=
  let c0_12 : Index := 0#32
  let c8_i32 : BitVec 32 := 8#32
  let v10 : BitVec 32 := Scalar.muli c0_i32 c8_i32
  let v11 : BitVec 32 := v10
  let v33 : Index := Scalar.indexCast v11
  let c0_13 : Index := 0#32
  let c0_14 : Index := 0#32
  ![0, v33.toNat, 0, 0]
def k0_mult2 : BitVec 32 :=
  let c1_i32 : BitVec 32 := 1#32
  let c8_i32_15 : BitVec 32 := 8#32
  let v37 : BitVec 32 := Scalar.muli c1_i32 c8_i32_15
  v37
def k0_mult3 : BitVec 32 :=
  let c2_i32 : BitVec 32 := 2#32
  let c8_i32_23 : BitVec 32 := 8#32
  let v64 : BitVec 32 := Scalar.muli c2_i32 c8_i32_23
  v64
def k0_mult4 : BitVec 32 :=
  let c3_i32 : BitVec 32 := 3#32
  let c8_i32_31 : BitVec 32 := 8#32
  let v91 : BitVec 32 := Scalar.muli c3_i32 c8_i32_31
  v91
def k0_mult5 : BitVec 32 :=
  let c4_i32 : BitVec 32 := 4#32
  let c8_i32_39 : BitVec 32 := 8#32
  let v118 : BitVec 32 := Scalar.muli c4_i32 c8_i32_39
  v118
def k0_mult6 : BitVec 32 :=
  let c5_i32 : BitVec 32 := 5#32
  let c8_i32_47 : BitVec 32 := 8#32
  let v145 : BitVec 32 := Scalar.muli c5_i32 c8_i32_47
  v145
def k0_mult7 : BitVec 32 :=
  let c6_i32 : BitVec 32 := 6#32
  let c8_i32_55 : BitVec 32 := 8#32
  let v172 : BitVec 32 := Scalar.muli c6_i32 c8_i32_55
  v172
def k0_mult8 : BitVec 32 :=
  let c7_i32 : BitVec 32 := 7#32
  let c8_i32_63 : BitVec 32 := 8#32
  let v199 : BitVec 32 := Scalar.muli c7_i32 c8_i32_63
  v199
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S256x256 : S_.BroadcastsInDim S256x256 (![] : Fin 0 → Fin S256x256.rank)
  shapeCasts_S32_S1x32 : S32.ShapeCasts S1x32
  transposes_S32x256_S256x32_1_0 : S32x256.Transposes [1, 0] S256x32
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S1x8x256 : 0 < S1x8x256.numel
  shapeCasts_S1x8x256_S8x256 : S1x8x256.ShapeCasts S8x256
  broadcasts_S1x32_S8x32 : S1x32.Broadcasts S8x32
  shapeCasts_S256x32_S1x256x32 : S256x32.ShapeCasts S1x256x32
  shapeCasts_S8x32_S8x1x32 : S8x32.ShapeCasts S8x1x32
  broadcasts_S1x256x32_S8x256x32 : S1x256x32.Broadcasts S8x256x32
  broadcasts_S8x1x32_S8x256x32 : S8x1x32.Broadcasts S8x256x32
  shapeCasts_S8x256x32_S2048x32 : S8x256x32.ShapeCasts S2048x32
  shapeCasts_S2048x256_S8x256x256 : S2048x256.ShapeCasts S8x256x256
  shapeCasts_S256x256_S1x256x256 : S256x256.ShapeCasts S1x256x256
  broadcasts_S1x256x256_S8x256x256 : S1x256x256.Broadcasts S8x256x256
  h_S1x8x256x256 : 0 < S1x8x256x256.numel
  shapeCasts_S1x8x256x256_S8x256x256 : S1x8x256x256.ShapeCasts S8x256x256
  shapeCasts_S8x256x256_S1x8x256x256 : S8x256x256.ShapeCasts S1x8x256x256
  dot_S8x256_S256x32_S8x32_1_0_0_1_n_n_wf : DotDims.WF S8x256 S256x32 S8x32 [1] [0] [0] [1] [] []
  dot_S2048x32_S32x256_S2048x256_1_0_0_1_n_n_wf : DotDims.WF S2048x32 S32x256 S2048x256 [1] [0] [0] [1] [] []
  hrank0 : 0 < grid0.rank
  k0_mult1_dvd : 8 ∣ k0_mult1.toNat
  k0_off1_inb : ∀ (r : Fin 8), ∀ a, (k0_off1 (BitVec.ofNat 32 r.val)) a + S1x8x256.size a ≤ S1x64x256.size a
  k0_off2_inb : ∀ (r : Fin 8), ∀ a, (k0_off2 (BitVec.ofNat 32 r.val)) a + S1x8x256x256.size a ≤ S1x64x256x256.size a
  k0_mult2_dvd : 8 ∣ k0_mult2.toNat
  k0_mult3_dvd : 8 ∣ k0_mult3.toNat
  k0_mult4_dvd : 8 ∣ k0_mult4.toNat
  k0_mult5_dvd : 8 ∣ k0_mult5.toNat
  k0_mult6_dvd : 8 ∣ k0_mult6.toNat
  k0_mult7_dvd : 8 ∣ k0_mult7.toNat
  k0_mult8_dvd : 8 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S2x1024x256.size a
  hwx0_0 : ∀ i : grid0.Coords, EltTy.bits .f32 = 32 ∨ (Rect.block (s := S2x1024x256) S1x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .bf16 = 32 ∨ (Rect.block (s := S256x32) S256x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .bf16 = 32 ∨ (Rect.block (s := S32x256) S32x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x256x256.size a ≤ S2x1024x256x256.size a
  hwx0_6 : ∀ i : grid0.Coords, EltTy.bits .f32 = 32 ∨ (Rect.block (s := S2x1024x256x256) S1x64x256x256.size (cc0_transform_6 i) (hinb0_6 i)).WholeWords (EltTy.packing .f32)

variable [Facts₀]

def dot_S8x256_S256x32_S8x32_1_0_0_1_n_n : DotDims S8x256 S256x32 S8x32 where
  lhsContracting := [1]
  rhsContracting := [0]
  lhsNonContracting := [0]
  rhsNonContracting := [1]
  lhsBatch := []
  rhsBatch := []
  wf := dot_S8x256_S256x32_S8x32_1_0_0_1_n_n_wf
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf

abbrev win0_0 : Pipeline.Window sig grid0 :=
  Pipeline.Window.ofSpec (Memref.whole main_arg0) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x1024x256 : Shape := ⟨3, ![2, 1024, 256]⟩
abbrev S32x256 : Shape := ⟨2, ![32, 256]⟩
abbrev S_ : Shape := ⟨0, ![]⟩
abbrev S32 : Shape := ⟨1, ![32]⟩
abbrev S2x1024x32 : Shape := ⟨3, ![2, 1024, 32]⟩
abbrev S1x1x32 : Shape := ⟨3, ![1, 1, 32]⟩
abbrev S2x1024x32x1 : Shape := ⟨4, ![2, 1024, 32, 1]⟩
abbrev S1x1x32x256 : Shape := ⟨4, ![1, 1, 32, 256]⟩
abbrev S2x1024x32x256 : Shape := ⟨4, ![2, 1024, 32, 256]⟩
abbrev S2x1024x256x256 : Shape := ⟨4, ![2, 1024, 256, 256]⟩
abbrev S256x256 : Shape := ⟨2, ![256, 256]⟩
abbrev S1x1x256x256 : Shape := ⟨4, ![1, 1, 256, 256]⟩

abbrev nBuf : Space → Nat
  | .hbm => 29
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S32x256, .f32⟩
  | .hbm, ⟨2, _⟩ => ⟨S_, .f32⟩
  | .hbm, ⟨3, _⟩ => ⟨S32x256, .f32⟩
  | .hbm, ⟨4, _⟩ => ⟨S32, .f32⟩
  | .hbm, ⟨5, _⟩ => ⟨S2x1024x32, .f32⟩
  | .hbm, ⟨6, _⟩ => ⟨S1x1x32, .f32⟩
  | .hbm, ⟨7, _⟩ => ⟨S2x1024x32, .f32⟩
  | .hbm, ⟨8, _⟩ => ⟨S2x1024x32, .f32⟩
  | .hbm, ⟨9, _⟩ => ⟨S2x1024x32, .f32⟩
  | .hbm, ⟨10, _⟩ => ⟨S2x1024x32x1, .f32⟩
  | .hbm, ⟨11, _⟩ => ⟨S1x1x32x256, .f32⟩
  | .hbm, ⟨12, _⟩ => ⟨S2x1024x32x256, .f32⟩
  | .hbm, ⟨13, _⟩ => ⟨S2x1024x32x256, .f32⟩
  | .hbm, ⟨14, _⟩ => ⟨S2x1024x32x256, .f32⟩
  | .hbm, ⟨15, _⟩ => ⟨S2x1024x256x256, .f32⟩
  | .hbm, ⟨16, _⟩ => ⟨S_, .f32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S1x1x256x256, .f32⟩
  | .hbm, ⟨27, _⟩ => ⟨S2x1024x256x256, .f32⟩
  | .hbm, ⟨28, _⟩ => ⟨S2x1024x256x256, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S2x1024x32_0_1_2 : S1x1x32.BroadcastsInDim S2x1024x32 (![0, 1, 2] : Fin 3 → Fin S2x1024x32.rank)
  bcast_S2x1024x32_S2x1024x32x1_0_1_2 : S2x1024x32.BroadcastsInDim S2x1024x32x1 (![0, 1, 2] : Fin 3 → Fin S2x1024x32x1.rank)
  bcast_S32x256_S1x1x32x256_2_3 : S32x256.BroadcastsInDim S1x1x32x256 (![2, 3] : Fin 2 → Fin S1x1x32x256.rank)
  bcast_S2x1024x32x1_S2x1024x32x256_0_1_2_3 : S2x1024x32x1.BroadcastsInDim S2x1024x32x256 (![0, 1, 2, 3] : Fin 4 → Fin S2x1024x32x256.rank)
  bcast_S1x1x32x256_S2x1024x32x256_0_1_2_3 : S1x1x32x256.BroadcastsInDim S2x1024x32x256 (![0, 1, 2, 3] : Fin 4 → Fin S2x1024x32x256.rank)
  bcast_S_S256x256 : S_.BroadcastsInDim S256x256 (![] : Fin 0 → Fin S256x256.rank)
  bcast_S256x256_S1x1x256x256_2_3 : S256x256.BroadcastsInDim S1x1x256x256 (![2, 3] : Fin 2 → Fin S1x1x256x256.rank)
  bcast_S1x1x256x256_S2x1024x256x256_0_1_2_3 : S1x1x256x256.BroadcastsInDim S2x1024x256x256 (![0, 1, 2, 3] : Fin 4 → Fin S2x1024x256x256.rank)
  dot_S2x1024x256_S32x256_S2x1024x32_2_1_01_0_n_n_wf : DotDims.WF S2x1024x256 S32x256 S2x1024x32 [2] [1] [0, 1] [0] [] []
  dot_S2x1024x32x256_S2x1024x32x256_S2x1024x256x256_2_2_3_3_01_01_wf : DotDims.WF S2x1024x32x256 S2x1024x32x256 S2x1024x256x256 [2] [2] [3] [3] [0, 1] [0, 1]

variable [Facts₀]

def dot_S2x1024x256_S32x256_S2x1024x32_2_1_01_0_n_n : DotDims S2x1024x256 S32x256 S2x1024x32 where
  lhsContracting := [2]
  rhsContracting := [1]
  lhsNonContracting := [0, 1]
  rhsNonContracting := [0]
  lhsBatch := []
  rhsBatch := []
  wf := dot_S2x1024x256_S32x256_S2x1024x32_2_1_01_0_n_n_wf
def dot_S2x1024x32x256_S2x1024x32x256_S2x1024x256x256_2_2_3_3_01_01 : DotDims S2x1024x32x256 S2x1024x32x256 S2x1024x256x256 where
  lhsContracting := [2]
  rhsContracting := [2]
  lhsNonContracting := [3]
  rhsNonContracting := [3]
  lhsBatch := [0, 1]
  rhsBatch := [0, 1]
  wf := dot_S2x1024x32x256_S2x1024x32x256_S2x1024x256x256_2_2_3_3_01_01_wf

class Facts : Prop extends Facts₀ where

variable [Facts]
-- ==== Proof.GramSpec.lean ====
/-
  The specification: what both programs compute, as one function of the argument arrays, index by index on the
  extended reals.

  The arguments are a batch of sequences x[b, s, d] (2 x 1024 x 256), a low-rank table A[r, i] (32 x 256), a
  projection W[r, d] (32 x 256) with bias[r], and a 256 x 256 table E added to every position's result (both programs
  build E on the host from the scalar argument, the same way: exp(log_lambda) times the identity pattern).

  For a position (b, s) the modulation of rank component r is
      mu(b, s, r) = tanh( sum_d x[b, s, d] * W[r, d] + bias[r] ),
  and the result is the modulated Gram matrix of the table's columns plus E:
      out[b, s, i, j] = sum_r (A[r, i] * (mu(b, s, r) * mu(b, s, r))) * A[r, j] + E[i, j].
  The product is written in the kernel's grouping; the reference's grouping (mu * A[r, i]) * (mu * A[r, j]) is the same
  extended real by commutativity and associativity of the product alone.

  The same formula is stated a second time over the arrays one grid point of the kernel sees: a 64-row slab of one
  batch entry of x, the projection and the table transposed (256 x 32), the table itself, the bias as a one-row array.
-/
import Idealize.ShloMosaic.PureOps.Ideal
import Idealize.ShloMosaic.Lib.ValueIdx

noncomputable section

open scoped BigOperators

namespace Cert.Gram

open Idealize.ShloMosaic Idealize.ShloMosaic.ValueIdx

/-! ## Over the whole arrays -/

/-- The modulation mu(b, s, r): the hyperbolic tangent of the position's projection onto rank component r, plus the bias. -/
def modulation (x : (⟨3, ![2, 1024, 256]⟩ : Shape).Idx → EReal) (W : (⟨2, ![32, 256]⟩ : Shape).Idx → EReal)
    (bias : (⟨1, ![32]⟩ : Shape).Idx → EReal) (b : Fin 2) (s : Fin 1024) (r : Fin 32) : EReal :=
  Ideal.tanh ((∑ d : Fin 256, x (ix3 b s d) * W (ix2 r d)) + bias (ix1 r))

/-- The result at position (b, s) and feature pair (i, j). -/
def gramAt (x : (⟨3, ![2, 1024, 256]⟩ : Shape).Idx → EReal) (A W : (⟨2, ![32, 256]⟩ : Shape).Idx → EReal)
    (bias : (⟨1, ![32]⟩ : Shape).Idx → EReal) (E : (⟨2, ![256, 256]⟩ : Shape).Idx → EReal)
    (b : Fin 2) (s : Fin 1024) (i j : Fin 256) : EReal :=
  (∑ r : Fin 32, (A (ix2 r i) * (modulation x W bias b s r * modulation x W bias b s r)) * A (ix2 r j)) + E (ix2 i j)

/-- The whole result array. -/
def gram (x : (⟨3, ![2, 1024, 256]⟩ : Shape).Idx → EReal) (A W : (⟨2, ![32, 256]⟩ : Shape).Idx → EReal)
    (bias : (⟨1, ![32]⟩ : Shape).Idx → EReal) (E : (⟨2, ![256, 256]⟩ : Shape).Idx → EReal) :
    (⟨4, ![2, 1024, 256, 256]⟩ : Shape).Idx → EReal :=
  fun y => gramAt x A W bias E (y 0) (y 1) (y 2) (y 3)

theorem gram_ix4 (x : (⟨3, ![2, 1024, 256]⟩ : Shape).Idx → EReal) (A W : (⟨2, ![32, 256]⟩ : Shape).Idx → EReal)
    (bias : (⟨1, ![32]⟩ : Shape).Idx → EReal) (E : (⟨2, ![256, 256]⟩ : Shape).Idx → EReal)
    (b : Fin 2) (s : Fin 1024) (i j : Fin 256) :
    gram x A W bias E (ix4 b s i j) = gramAt x A W bias E b s i j := rfl

/-! ## Over one grid point's arrays -/

/-- The modulation of row s of a 64-row slab, from the transposed projection. -/
def slabModulation (xb : (⟨3, ![1, 64, 256]⟩ : Shape).Idx → EReal) (Wt : (⟨2, ![256, 32]⟩ : Shape).Idx → EReal)
    (b2 : (⟨2, ![1, 32]⟩ : Shape).Idx → EReal) (s : Fin 64) (r : Fin 32) : EReal :=
  Ideal.tanh ((∑ d : Fin 256, xb (ix3 (0 : Fin 1) s d) * Wt (ix2 d r)) + b2 (ix2 (0 : Fin 1) r))

/-- The slab's result at row s and feature pair (i, j), from the transposed table At and the table Ab. -/
def slabAt (xb : (⟨3, ![1, 64, 256]⟩ : Shape).Idx → EReal) (Wt At : (⟨2, ![256, 32]⟩ : Shape).Idx → EReal)
    (Ab : (⟨2, ![32, 256]⟩ : Shape).Idx → EReal) (b2 : (⟨2, ![1, 32]⟩ : Shape).Idx → EReal)
    (E : (⟨2, ![256, 256]⟩ : Shape).Idx → EReal) (s : Fin 64) (i j : Fin 256) : EReal :=
  (∑ r : Fin 32, (At (ix2 i r) * (slabModulation xb Wt b2 s r * slabModulation xb Wt b2 s r)) * Ab (ix2 r j)) + E (ix2 i j)

/-- The slab's whole result block. -/
def slab (xb : (⟨3, ![1, 64, 256]⟩ : Shape).Idx → EReal) (Wt At : (⟨2, ![256, 32]⟩ : Shape).Idx → EReal)
    (Ab : (⟨2, ![32, 256]⟩ : Shape).Idx → EReal) (b2 : (⟨2, ![1, 32]⟩ : Shape).Idx → EReal)
    (E : (⟨2, ![256, 256]⟩ : Shape).Idx → EReal) : (⟨4, ![1, 64, 256, 256]⟩ : Shape).Idx → EReal :=
  fun y => slabAt xb Wt At Ab b2 E (y 1) (y 2) (y 3)

theorem slab_ix4 (xb : (⟨3, ![1, 64, 256]⟩ : Shape).Idx → EReal) (Wt At : (⟨2, ![256, 32]⟩ : Shape).Idx → EReal)
    (Ab : (⟨2, ![32, 256]⟩ : Shape).Idx → EReal) (b2 : (⟨2, ![1, 32]⟩ : Shape).Idx → EReal)
    (E : (⟨2, ![256, 256]⟩ : Shape).Idx → EReal) (u : Fin 1) (s : Fin 64) (i j : Fin 256) :
    slab xb Wt At Ab b2 E (ix4 u s i j) = slabAt xb Wt At Ab b2 E s i j := rfl

/-! ## From a grid point's arrays to the whole arrays -/

/-- If a slab is rows of batch entry b of x starting where row s of the slab is row s' of the sequence, the two 256 x 32
    arrays are the transposes of W and of A, the 32 x 256 array is A, the one-row array is the bias and the added
    tables agree, then the slab's result at row s is the whole result at position (b, s'). -/
theorem slabAt_eq_gramAt
    (xb : (⟨3, ![1, 64, 256]⟩ : Shape).Idx → EReal) (Wt At : (⟨2, ![256, 32]⟩ : Shape).Idx → EReal)
    (Ab : (⟨2, ![32, 256]⟩ : Shape).Idx → EReal) (b2 : (⟨2, ![1, 32]⟩ : Shape).Idx → EReal)
    (E' : (⟨2, ![256, 256]⟩ : Shape).Idx → EReal)
    (x : (⟨3, ![2, 1024, 256]⟩ : Shape).Idx → EReal) (A W : (⟨2, ![32, 256]⟩ : Shape).Idx → EReal)
    (bias : (⟨1, ![32]⟩ : Shape).Idx → EReal) (E : (⟨2, ![256, 256]⟩ : Shape).Idx → EReal)
    (b : Fin 2) (s' : Fin 1024) (s : Fin 64) (i j : Fin 256)
    (hx : ∀ d : Fin 256, xb (ix3 (0 : Fin 1) s d) = x (ix3 b s' d))
    (hW : ∀ (d : Fin 256) (r : Fin 32), Wt (ix2 d r) = W (ix2 r d))
    (hA : ∀ (p : Fin 256) (r : Fin 32), At (ix2 p r) = A (ix2 r p))
    (hAb : ∀ (r : Fin 32) (q : Fin 256), Ab (ix2 r q) = A (ix2 r q))
    (hb : ∀ r : Fin 32, b2 (ix2 (0 : Fin 1) r) = bias (ix1 r))
    (hE : ∀ p q : Fin 256, E' (ix2 p q) = E (ix2 p q)) :
    slabAt xb Wt At Ab b2 E' s i j = gramAt x A W bias E b s' i j := by
  unfold slabAt gramAt slabModulation modulation
  simp only [hx, hW, hA, hAb, hb, hE]

end Cert.Gram

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibFoldAxes.lean ====
/-
  Layout operations on rank-3 arrays read at an index, over literal coordinates.

  A kernel that multiplies a stack of m matrices (each a-by-b) by one matrix folds the stack's two leading axes into one
  axis of m*a rows, multiplies once, and unfolds the product back into a stack. Row k*a + i of the folded array is row i
  of matrix k. Beside the fold and the unfold: a unit middle axis inserted into a matrix (so that a per-(row, column)
  factor can be spread across a new middle axis), and the two spreads of a rank-3 array along a unit axis (one matrix
  repeated for every k; one row per k repeated for every i).
-/
import Idealize.ShloMosaic.Lib.Pipeline.Value
import Idealize.ShloMosaic.Lib.ValueIdx

noncomputable section

namespace Cert.Lib.FoldAxes

open Idealize.ShloMosaic Idealize.ShloMosaic.ValueIdx

variable {α : Type}

/-! ## Folding and unfolding the two leading axes -/

/-- A stack [m, a, b] cast to [n, b] (n = m*a) reads, at row p = k*a + i and column j, the stack at (k, i, j). -/
theorem shapeCast_fold_apply {m a b n : ℕ} (x : (⟨3, ![m, a, b]⟩ : Shape).Idx → α)
    (h : (⟨3, ![m, a, b]⟩ : Shape).ShapeCasts ⟨2, ![n, b]⟩) (k : Fin m) (i : Fin a) (j : Fin b) (p : Fin n)
    (hp : p.val = k.val * a + i.val) :
    shapeCast ⟨2, ![n, b]⟩ x h (ix2 p j) = x (ix3 k i j) :=
  shapeCast_apply x h _ _ (by
    rw [Shape.rowMajor_val_three, Shape.rowMajor_val_two]
    show (k.val * a + i.val) * b + j.val = p.val * b + j.val
    rw [hp])

/-- An array [n, b] (n = m*a) cast to the stack [m, a, b] reads, at (k, i, j), the array at row p = k*a + i, column j. -/
theorem shapeCast_unfold_apply {m a b n : ℕ} (x : (⟨2, ![n, b]⟩ : Shape).Idx → α)
    (h : (⟨2, ![n, b]⟩ : Shape).ShapeCasts ⟨3, ![m, a, b]⟩) (k : Fin m) (i : Fin a) (j : Fin b) (p : Fin n)
    (hp : p.val = k.val * a + i.val) :
    shapeCast ⟨3, ![m, a, b]⟩ x h (ix3 k i j) = x (ix2 p j) :=
  shapeCast_apply x h _ _ (by
    rw [Shape.rowMajor_val_two, Shape.rowMajor_val_three]
    show p.val * b + j.val = (k.val * a + i.val) * b + j.val
    rw [hp])

/-! ## A unit middle axis -/

/-- A matrix [a, b] cast to [a, 1, b] reads, at (i, u, j), the matrix at (i, j), whatever the unit coordinate u. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-! ## Spreading along a unit axis -/

/-- One matrix [1, a, b] spread to a stack [m, a, b] reads, at (k, i, j), the matrix at (i, j). -/
theorem broadcastTo_1ab_mab_apply {m a b : ℕ} (v : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- One row per k, [m, 1, b], spread to [m, a, b] reads, at (k, i, j), row k at column j. -/
theorem broadcastTo_m1b_mab_apply {m a b : ℕ} (v : (⟨3, ![m, 1, b]⟩ : Shape).Idx → α)
    (h : (⟨3, ![m, 1, b]⟩ : Shape).Broadcasts ⟨3, ![m, a, b]⟩) (k : Fin m) (i : Fin a) (j : Fin b) :
    broadcastTo ⟨3, ![m, a, b]⟩ v h (ix3 k i j) = v (ix3 k (0 : Fin 1) j) := by
  refine broadcastTo_apply v h (ix3 k i j) (ix3 k (0 : Fin 1) j) fun ax => ?_
  match ax with
  | ⟨0, _⟩ =>
    show k.val = if m = 1 then 0 else k.val
    split
    · have := k.isLt; omega
    · rfl
  | ⟨1, _⟩ => rfl
  | ⟨2, _⟩ =>
    show j.val = if b = 1 then 0 else j.val
    split
    · have := j.isLt; omega
    · rfl

end Cert.Lib.FoldAxes

end
-- ==== Proof.ChunkValue.lean ====
/-
  One chunk of the kernel's body, read at an index.

  The body handles its 64-row slab in eight chunks of 8 rows. For a chunk with rows xc (1 x 8 x 256) it forms
      xw[s, r]   = sum_d xc[s, d] * Wt[d, r]            (a matrix product into a zero accumulator)
      mu[s, r]   = tanh(xw[s, r] + b2[0, r])
      P[s, i, r] = At[i, r] * (mu[s, r] * mu[s, r])     (the transposed table scaled by the squared modulation)
  folds P's two leading axes into 2048 rows, multiplies by the table Ab (32 x 256) into a zero accumulator, unfolds the
  product into 8 matrices of 256 x 256 and adds the table E to each. So the stored value at (s, i, j) is
      sum_r (At[i, r] * (mu[s, r] * mu[s, r])) * Ab[r, j] + E[i, j].
  Changes of float format are the identity on the extended reals and do not appear.

  The eight stores of the body carry this one function written in eight ways (the same operations cut at different
  places into named pieces); all eight unfold to the first one.
-/
import proofs.«178066_j83923660964339_2_alg».proof.Proof.Gen.KernelIdeal.Skeleton
import proofs.«178066_j83923660964339_2_alg».proof.Proof.Gen.KernelIdeal
import proofs.«178066_j83923660964339_2_alg».proof.Proof.GramSpec
import proofs.«178066_j83923660964339_2_alg».proof.Proof.LibMatmul
import proofs.«178066_j83923660964339_2_alg».proof.Proof.LibFoldAxes
import Idealize.ShloMosaic.Lib.ValueLayout
import Idealize.ShloMosaic.Lib.Pipeline.Value

noncomputable section

open scoped BigOperators

namespace Cert.Gram.Chunk

open Cert.KernelIdeal Cert.KernelIdeal.Gen Idealize.ShloMosaic Idealize.ShloMosaic.ValueIdx
open Cert.Lib.FoldAxes Cert.Lib.Matmul

/-! ## The eight spellings are one function -/

section Spellings

variable {F : FTy → Type} [FloatOps F]
variable (Wt : Vec F S256x32 .bf16) (At : Vec F S256x32 .f32) (Ab : Vec F S32x256 .bf16) (b2 : Vec F S1x32 .f32)
  (E : Vec F S256x256 .f32) (xc : Vec F S1x8x256 .f32)

theorem spelling1 : k0_pay8 (k0_pay2 Wt) (k0_pay3 At) (k0_pay4 Ab) (k0_pay5 b2) (k0_pay6 E) xc = k0_pay7 Wt At Ab b2 E xc := rfl

theorem spelling2 : k0_pay10 (k0_pay4 Ab) (k0_pay6 E) (k0_pay9 (k0_pay2 Wt) (k0_pay3 At) (k0_pay5 b2) xc)
    (constant S2048x256 FTy.f32 0#32) = k0_pay7 Wt At Ab b2 E xc := rfl

theorem spelling3 : k0_pay11 (k0_pay2 Wt) (k0_pay3 At) (k0_pay4 Ab) (k0_pay5 b2) (k0_pay6 E) xc = k0_pay7 Wt At Ab b2 E xc := rfl

theorem spelling4 : k0_pay13 (k0_pay2 Wt) (k0_pay3 At) (k0_pay4 Ab) (k0_pay5 b2) (k0_pay6 E) (k0_pay12 xc)
    = k0_pay7 Wt At Ab b2 E xc := rfl

theorem spelling5 : k0_pay15 (k0_pay14 (k0_pay2 Wt) (k0_pay3 At) (k0_pay4 Ab) (k0_pay5 b2) (k0_pay6 E) xc)
    = k0_pay7 Wt At Ab b2 E xc := rfl

theorem spelling6 : k0_pay16 (k0_pay2 Wt) (k0_pay3 At) (k0_pay4 Ab) (k0_pay5 b2) (k0_pay6 E) xc = k0_pay7 Wt At Ab b2 E xc := rfl

theorem spelling7 : k0_pay1 (k0_pay4 Ab) (k0_pay6 E) (k0_pay17 (k0_pay2 Wt) (k0_pay5 b2) xc) (k0_pay18 (k0_pay3 At))
    = k0_pay7 Wt At Ab b2 E xc := rfl

end Spellings

/-! ## The two products' dimension numbers -/

theorem d1_l0 (j : S8x32.Idx) (c : (dot_S8x256_S256x32_S8x32_1_0_0_1_n_n).contr.Idx) :
    ((dot_S8x256_S256x32_S8x32_1_0_0_1_n_n).lhsIdx j c 0).val = (j 0).val := by
  unfold DotDims.lhsIdx
  rw [dif_neg (show ¬(0 : Fin S8x256.rank) ∈ (dot_S8x256_S256x32_S8x32_1_0_0_1_n_n).lhsBatch by decide),
    dif_pos (show (0 : Fin S8x256.rank) ∈ (dot_S8x256_S256x32_S8x32_1_0_0_1_n_n).lhsNonContracting by decide)]
  rfl

theorem d1_r1 (j : S8x32.Idx) (c : (dot_S8x256_S256x32_S8x32_1_0_0_1_n_n).contr.Idx) :
    ((dot_S8x256_S256x32_S8x32_1_0_0_1_n_n).rhsIdx j c 1).val = (j 1).val := by
  unfold DotDims.rhsIdx
  rw [dif_neg (show ¬(1 : Fin S256x32.rank) ∈ (dot_S8x256_S256x32_S8x32_1_0_0_1_n_n).rhsBatch by decide),
    dif_pos (show (1 : Fin S256x32.rank) ∈ (dot_S8x256_S256x32_S8x32_1_0_0_1_n_n).rhsNonContracting by decide)]
  rfl

theorem d2_l0 (j : S2048x256.Idx) (c : (dot_S2048x32_S32x256_S2048x256_1_0_0_1_n_n).contr.Idx) :
    ((dot_S2048x32_S32x256_S2048x256_1_0_0_1_n_n).lhsIdx j c 0).val = (j 0).val := by
  unfold DotDims.lhsIdx
  rw [dif_neg (show ¬(0 : Fin S2048x32.rank) ∈ (dot_S2048x32_S32x256_S2048x256_1_0_0_1_n_n).lhsBatch by decide),
    dif_pos (show (0 : Fin S2048x32.rank) ∈ (dot_S2048x32_S32x256_S2048x256_1_0_0_1_n_n).lhsNonContracting by decide)]
  rfl

theorem d2_r1 (j : S2048x256.Idx) (c : (dot_S2048x32_S32x256_S2048x256_1_0_0_1_n_n).contr.Idx) :
    ((dot_S2048x32_S32x256_S2048x256_1_0_0_1_n_n).rhsIdx j c 1).val = (j 1).val := by
  unfold DotDims.rhsIdx
  rw [dif_neg (show ¬(1 : Fin S32x256.rank) ∈ (dot_S2048x32_S32x256_S2048x256_1_0_0_1_n_n).rhsBatch by decide),
    dif_pos (show (1 : Fin S32x256.rank) ∈ (dot_S2048x32_S32x256_S2048x256_1_0_0_1_n_n).rhsNonContracting by decide)]
  rfl

/-- The projection product read at (s, r): the sum over the 256 features. -/
theorem proj_apply (l : FVec Ideal S8x256 .bf16) (w : FVec Ideal S256x32 .bf16) (s : Fin 8) (r : Fin 32) :
    matmul (dot_S8x256_S256x32_S8x32_1_0_0_1_n_n) none l w (constant S8x32 .f32 0x00000000#32) (ix2 s r)
      = ∑ d : Fin 256, l (ix2 s d) * w (ix2 d r) :=
  matmul_zero_ix2 (dot_S8x256_S256x32_S8x32_1_0_0_1_n_n) none rfl rfl d1_l0
    (fun j c => (dot_S8x256_S256x32_S8x32_1_0_0_1_n_n).lhsIdx_val_of_single rfl j c)
    (fun j c => (dot_S8x256_S256x32_S8x32_1_0_0_1_n_n).rhsIdx_val_of_single rfl j c) d1_r1 l w s r

/-- The table product read at (p, j): the sum over the 32 rank components. -/
theorem gramProd_apply (l : FVec Ideal S2048x32 .bf16) (a : FVec Ideal S32x256 .bf16) (p : Fin 2048) (j : Fin 256) :
    matmul (dot_S2048x32_S32x256_S2048x256_1_0_0_1_n_n) none l a (constant S2048x256 .f32 0x00000000#32) (ix2 p j)
      = ∑ r : Fin 32, l (ix2 p r) * a (ix2 r j) :=
  matmul_zero_ix2 (dot_S2048x32_S32x256_S2048x256_1_0_0_1_n_n) none rfl rfl d2_l0
    (fun j c => (dot_S2048x32_S32x256_S2048x256_1_0_0_1_n_n).lhsIdx_val_of_single rfl j c)
    (fun j c => (dot_S2048x32_S32x256_S2048x256_1_0_0_1_n_n).rhsIdx_val_of_single rfl j c) d2_r1 l a p j

/-! ## The chunk function at an index -/

/-- The modulation of row s of the chunk for rank component r. -/
def chunkMod (Wt : FVec Ideal S256x32 .bf16) (b2 : FVec Ideal S1x32 .f32) (xc : FVec Ideal S1x8x256 .f32)
    (s : Fin 8) (r : Fin 32) : EReal :=
  Ideal.tanh ((∑ d : Fin 256, xc (ix3 (0 : Fin 1) s d) * Wt (ix2 d r)) + b2 (ix2 (0 : Fin 1) r))

/-- The stored value of a chunk at row s and feature pair (i, j): the rank sum of the scaled transposed table against
    the table, plus E. -/
theorem pay7_apply (Wt : FVec Ideal S256x32 .bf16) (At : FVec Ideal S256x32 .f32) (Ab : FVec Ideal S32x256 .bf16)
    (b2 : FVec Ideal S1x32 .f32) (E : FVec Ideal S256x256 .f32) (xc : FVec Ideal S1x8x256 .f32)
    (u : Fin 1) (s : Fin 8) (i j : Fin 256) :
    k0_pay7 (F := Ideal) Wt At Ab b2 E xc (ix4 u s i j)
      = (∑ r : Fin 32, (At (ix2 i r) * (chunkMod Wt b2 xc s r * chunkMod Wt b2 xc s r)) * Ab (ix2 r j)) + E (ix2 i j) := by
  unfold k0_pay7 k0_pay2 k0_pay3 k0_pay4 k0_pay5 k0_pay6
  refine (shapeCast_abc_1abc_apply _ _ u s i j).trans ?_
  refine (addf_apply _ _ _).trans ?_
  refine congrArg₂ (· + ·) ?_ ?_
  · -- the product, unfolded from 2048 rows back to (s, i)
    refine (shapeCast_unfold_apply _ _ s i j (⟨s.val * 256 + i.val, by omega⟩ : Fin 2048) rfl).trans ?_
    refine (gramProd_apply _ _ _ _).trans ?_
    refine Finset.sum_congr rfl fun r _ => ?_
    refine congrArg₂ (· * ·) ?_ ?_
    · -- row s*256 + i of the folded scaled table is At[i, r] times the squared modulation
      refine (truncf_apply (φ := .f32) (ψ := .bf16) _ bitsLt_bf16_f32 _).trans ?_
      refine (shapeCast_fold_apply _ _ s i r (⟨s.val * 256 + i.val, by omega⟩ : Fin 2048) rfl).trans ?_
      refine (mulf_apply _ _ _).trans ?_
      refine congrArg₂ (· * ·) ?_ ?_
      · refine (broadcastTo_1ab_mab_apply _ _ s i r).trans ?_
        refine (shapeCast_ab_1ab_apply _ _ (0 : Fin 1) i r).trans ?_
        exact congrFun (shapeCast_self _ _) _
      · refine (broadcastTo_m1b_mab_apply _ _ s i r).trans ?_
        refine (shapeCast_ab_a1b_apply _ _ s (0 : Fin 1) r).trans ?_
        refine (mulf_apply _ _ _).trans ?_
        have hmod : ∀ (v : FVec Ideal S8x32 .f32), v (ix2 s r) = (∑ d : Fin 256, xc (ix3 (0 : Fin 1) s d) * Wt (ix2 d r)) + b2 (ix2 (0 : Fin 1) r) →
            tanh v (ix2 s r) = chunkMod Wt b2 xc s r := fun v hv => by
          show Ideal.tanh (v (ix2 s r)) = _
          rw [hv]; rfl
        have hsum : (addf (matmul (dot_S8x256_S256x32_S8x32_1_0_0_1_n_n) none
              (truncf .bf16 (shapeCast S8x256 xc shapeCasts_S1x8x256_S8x256) bitsLt_bf16_f32)
              (shapeCast S256x32 Wt shapeCasts_S256x32_S256x32) (constant S8x32 .f32 0x00000000#32))
            (broadcastTo S8x32 (shapeCast S1x32 b2 shapeCasts_S1x32_S1x32) broadcasts_S1x32_S8x32)) (ix2 s r)
            = (∑ d : Fin 256, xc (ix3 (0 : Fin 1) s d) * Wt (ix2 d r)) + b2 (ix2 (0 : Fin 1) r) := by
          refine (addf_apply _ _ _).trans ?_
          refine congrArg₂ (· + ·) ?_ ?_
          · refine (proj_apply _ _ s r).trans ?_
            refine Finset.sum_congr rfl fun d _ => ?_
            refine congrArg₂ (· * ·) ?_ ?_
            · refine (truncf_apply (φ := .f32) (ψ := .bf16) _ bitsLt_bf16_f32 _).trans ?_
              exact shapeCast_1ab_ab_apply _ _ s d
            · exact congrFun (shapeCast_self _ _) _
          · refine (broadcastTo_1b_ab_apply _ _ s r).trans ?_
            exact congrFun (shapeCast_self _ _) _
        exact congrArg₂ (· * ·) (hmod _ hsum) (hmod _ hsum)
    · exact congrFun (shapeCast_self _ _) _
  · -- E, spread over the chunk's 8 rows
    refine (broadcastTo_1ab_mab_apply _ _ s i j).trans ?_
    refine (shapeCast_ab_1ab_apply _ _ (0 : Fin 1) i j).trans ?_
    exact congrFun (shapeCast_self _ _) _

end Cert.Gram.Chunk

end
-- ==== Proof.SlabValue.lean ====
/-
  What one grid point of the kernel leaves in its output block.

  The body writes its 64 x 256 x 256 output block in eight stores of 8 rows each, at row offsets 0, 8, ..., 56. The
  store at offset o carries the chunk function of rows o .. o+7 of the point's slab of x, so its value at local row s
  is the slab's result at row o + s: every store is a restriction of ONE function of the block index, the slab's
  result (GramSpec). The eight row ranges tile the block, so the block read back after the body is that function.
-/
import proofs.«178066_j83923660964339_2_alg».proof.Proof.Gen.KernelIdeal.Frame
import proofs.«178066_j83923660964339_2_alg».proof.Proof.ChunkValue
import Idealize.ShloMosaic.Lib.Pipeline.Value

set_option maxRecDepth 16384

noncomputable section

open scoped BigOperators

namespace Cert.Gram.Slab

open Cert.KernelIdeal Cert.KernelIdeal.Gen Idealize.ShloMosaic Idealize.ShloMosaic.TcCoe Idealize.ShloMosaic.Tactic
open Idealize.ShloMosaic.ValueIdx Idealize.SL.Sem
open Cert.Gram Cert.Gram.Chunk

/-- The store at row offset o: the chunk function of the slab's rows o .. o+7, at a local index, is the slab's result
    at the index the store's rectangle places it. -/
theorem piece_eq (o : ℕ) (ho : o + 8 ≤ 64)
    (inb1 : ∀ a, (![0, o, 0] : Fin 3 → ℕ) a + (![1, 8, 256] : Fin 3 → ℕ) a ≤ S1x64x256.size a)
    (inb2 : ∀ a, (![0, o, 0, 0] : Fin 4 → ℕ) a + (![1, 8, 256, 256] : Fin 4 → ℕ) a ≤ S1x64x256x256.size a)
    (x0 : FVec Ideal S1x64x256 .f32) (x1 : FVec Ideal S256x32 .bf16) (x2 : FVec Ideal S256x32 .f32)
    (x3 : FVec Ideal S32x256 .bf16) (x4 : FVec Ideal S1x32 .f32) (x5 : FVec Ideal S256x256 .f32)
    (x : (⟨4, ![1, 8, 256, 256]⟩ : Shape).Idx) :
    k0_pay7 (F := Ideal) x1 x2 x3 x4 x5 (View.ld (Val := Elt Ideal) (e' := .f32) x0 (Rect.unit (s := S1x64x256) ![0, o, 0] ![1, 8, 256] inb1)) x
      = slab x0 x1 x2 x3 x4 x5 ((Rect.unit (s := S1x64x256x256) ![0, o, 0, 0] ![1, 8, 256, 256] inb2).emb x) := by
  obtain ⟨u, s, i, j, rfl⟩ : ∃ (u : Fin 1) (s : Fin 8) (i j : Fin 256), x = ix4 u s i j := ⟨x 0, x 1, x 2, x 3, eq_ix4 x⟩
  have hs : o + s.val < 64 := by have := s.isLt; omega
  have he : (Rect.unit (s := S1x64x256x256) ![0, o, 0, 0] ![1, 8, 256, 256] inb2).emb (ix4 u s i j)
      = ix4 (0 : Fin 1) (⟨o + s.val, hs⟩ : Fin 64) i j :=
    funext fun a => Fin.ext (by
      match a with
      | ⟨0, _⟩ => show 0 + 1 * u.val = 0; omega
      | ⟨1, _⟩ => show o + 1 * s.val = o + s.val; omega
      | ⟨2, _⟩ => show 0 + 1 * i.val = i.val; omega
      | ⟨3, _⟩ => show 0 + 1 * j.val = j.val; omega)
  have hx : ∀ d : Fin 256, View.ld (Val := Elt Ideal) (e' := .f32) x0 (Rect.unit (s := S1x64x256) ![0, o, 0] ![1, 8, 256] inb1) (ix3 (0 : Fin 1) s d)
      = x0 (ix3 (0 : Fin 1) (⟨o + s.val, hs⟩ : Fin 64) d) := fun d => by
    show x0 _ = x0 _
    refine congrArg x0 (funext fun a => Fin.ext ?_)
    match a with
    | ⟨0, _⟩ => show 0 + 1 * 0 = 0; omega
    | ⟨1, _⟩ => show o + 1 * s.val = o + s.val; omega
    | ⟨2, _⟩ => show 0 + 1 * d.val = d.val; omega
  rw [he, slab_ix4, pay7_apply]
  unfold slabAt slabModulation chunkMod
  simp only [hx]

variable (c : Dev nD) (i : grid0.Coords) (arg2 : Memref sig .tc .vmem S1x64x256 .f32) (harg2 : arg2.IsWhole)
  (arg3 : Memref sig .tc .vmem S256x32 .bf16) (harg3 : arg3.IsWhole) (arg4 : Memref sig .tc .vmem S256x32 .f32) (harg4 : arg4.IsWhole)
  (arg5 : Memref sig .tc .vmem S32x256 .bf16) (harg5 : arg5.IsWhole) (arg6 : Memref sig .tc .vmem S1x32 .f32) (harg6 : arg6.IsWhole)
  (arg7 : Memref sig .tc .vmem S256x256 .f32) (harg7 : arg7.IsWhole) (arg8 : Memref sig .tc .vmem S1x64x256x256 .f32) (harg8 : arg8.IsWhole)
  (x0 : Vec Ideal S1x64x256 .f32) (x1 : Vec Ideal S256x32 .bf16) (x2 : Vec Ideal S256x32 .f32) (x3 : Vec Ideal S32x256 .bf16)
  (x4 : Vec Ideal S1x32 .f32) (x5 : Vec Ideal S256x256 .f32)

/-- Every store of the body's run is the slab's result restricted to its rectangle. -/
theorem pieces_eq : ∀ p ∈ (kernelRun0_A (F := Ideal) c i arg2 harg2 arg3 harg3 arg4 harg4 arg5 harg5 arg6 harg6 arg7 harg7 arg8 harg8 x0 x1 x2 x3 x4 x5).1,
    ∀ x : p.1.shape.Idx, p.2 x = slab x0 x1 x2 x3 x4 x5 (p.1.emb x) := by
  have hz : (![0, 0] : Fin 2 → ℕ) = fun _ => 0 := by funext a; fin_cases a <;> rfl
  unfold kernelRun0_A
  dsimp only
  sl_unfold_words
  simp only [View.readAt_eq_ld, harg2.read_unread, harg3.read_unread, harg4.read_unread, harg5.read_unread,
    harg6.read_unread, harg7.read_unread, View.ld_unit_zero (S := S256x32) hz, View.ld_unit_zero (S := S32x256) hz,
    View.ld_unit_zero (S := S1x32) hz, View.ld_unit_zero (S := S256x256) hz]
  intro p hp x
  simp only [List.mem_cons, List.not_mem_nil, or_false] at hp
  rcases hp with rfl | rfl | rfl | rfl | rfl | rfl | rfl | rfl
  · refine Eq.trans (congrFun (spelling7 x1 x2 x3 x4 x5 _) x) ?_
    exact piece_eq 56 (by omega) (by decide) (by decide) x0 x1 x2 x3 x4 x5 x
  · refine Eq.trans (congrFun (spelling6 x1 x2 x3 x4 x5 _) x) ?_
    exact piece_eq 48 (by omega) (by decide) (by decide) x0 x1 x2 x3 x4 x5 x
  · refine Eq.trans (congrFun (spelling5 x1 x2 x3 x4 x5 _) x) ?_
    exact piece_eq 40 (by omega) (by decide) (by decide) x0 x1 x2 x3 x4 x5 x
  · refine Eq.trans (congrFun (spelling4 x1 x2 x3 x4 x5 _) x) ?_
    exact piece_eq 32 (by omega) (by decide) (by decide) x0 x1 x2 x3 x4 x5 x
  · refine Eq.trans (congrFun (spelling3 x1 x2 x3 x4 x5 _) x) ?_
    exact piece_eq 24 (by omega) (by decide) (by decide) x0 x1 x2 x3 x4 x5 x
  · refine Eq.trans (congrFun (spelling2 x1 x2 x3 x4 x5 _) x) ?_
    exact piece_eq 16 (by omega) (by decide) (by decide) x0 x1 x2 x3 x4 x5 x
  · refine Eq.trans (congrFun (spelling1 x1 x2 x3 x4 x5 _) x) ?_
    exact piece_eq 8 (by omega) (by decide) (by decide) x0 x1 x2 x3 x4 x5 x
  · exact piece_eq 0 (by omega) (by decide) (by decide) x0 x1 x2 x3 x4 x5 x

/-- The output block after the body is the slab's result. -/
theorem out_eq_slab : out0_A_6 (F := Ideal) c i arg2 harg2 arg3 harg3 arg4 harg4 arg5 harg5 arg6 harg6 arg7 harg7 arg8 harg8 x0 x1 x2 x3 x4 x5 = slab x0 x1 x2 x3 x4 x5 := by
  unfold out0_A_6
  rw [View.read_writes_eq_canon _ _ _ (cover0_A_6 c i arg2 harg2 arg3 harg3 arg4 harg4 arg5 harg5 arg6 harg6 arg7 harg7 arg8 harg8 x0 x1 x2 x3 x4 x5)]
  funext y
  exact View.canon_apply_of_pieces (slab x0 x1 x2 x3 x4 x5) _
    (pieces_eq c i arg2 harg2 arg3 harg3 arg4 harg4 arg5 harg5 arg6 harg6 arg7 harg7 arg8 harg8 x0 x1 x2 x3 x4 x5) y (cover0_A_6 c i arg2 harg2 arg3 harg3 arg4 harg4 arg5 harg5 arg6 harg6 arg7 harg7 arg8 harg8 x0 x1 x2 x3 x4 x5 y)

end Cert.Gram.Slab

end
-- ==== Proof.KernelValue.lean ====
/-
  The kernel computes the specification.

  Before the region the host lays the operands out: the projection W transposed (and its float format changed, the
  identity on the extended reals), the table A transposed, A itself (format changed), the bias as a one-row array, and
  the table E = exp(log_lambda) times the identity pattern. The grid has 2 x 16 points; point (b, q) stages rows
  64 q .. 64 q + 63 of batch entry b of x, the five small arrays whole, and writes back rows 64 q .. 64 q + 63 of batch
  entry b of the result. What it writes is the slab's result of its staged arrays (SlabValue), which is the whole
  result restricted to its block (GramSpec's passage from a slab to the whole arrays). The 32 blocks tile the result
  array, so after the run the array is the specification of the argument arrays.
-/
import proofs.«178066_j83923660964339_2_alg».proof.Proof.Gen.KernelIdeal.Value
import proofs.«178066_j83923660964339_2_alg».proof.Proof.SlabValue
import Idealize.ShloMosaic.Lib.ValueLayout
import Idealize.ShloMosaic.Lib.StableHlo.Run
import Idealize.ShloMosaic.Lib.Pipeline.Value

set_option maxRecDepth 16384

noncomputable section

open scoped BigOperators

namespace Cert.Gram.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Gram

variable (m : (ℓ : Loc nD τ sig) → Buf (Elt Ideal) ℓ) (ρ : Dev nD → PrngReg)

/-! ## The arrays the region finds -/

/-- The table E as the kernel's host prefix builds it from the scalar argument. -/
def lamEye (ll : S_.Idx → Ideal .f32) : S256x256.Idx → Ideal .f32 :=
  mulf (broadcastInDim S256x256 ![] bcast_S_S256x256 (Host.exp (F := Ideal) ll))
    (uitofp (F := Ideal) .f32 (cmpi .eq (addi (iotaInDim S256x256 32 0) (broadcastInDim S256x256 ![] bcast_S_S256x256 (constantI S_ 32 0#32)))
      (iotaInDim S256x256 32 1)))

theorem V_E (c : Dev nD) : (V m c main_v8 : S256x256.Idx → Ideal .f32) = lamEye (m ((c : Thread nD τ).loc main_arg2)) := by
  dsimp only [V, hostOps0]; after_results; try rfl

theorem V_bias (c : Dev nD) : (V m c main_v9 : S1x32.Idx → Ideal .f32)
    = shapeCast S1x32 (m ((c : Thread nD τ).loc main_arg4) : S32.Idx → Ideal .f32) shapeCasts_S32_S1x32 := by
  dsimp only [V, hostOps0]; after_results; try rfl

theorem V_Wt (c : Dev nD) : (V m c main_v11 : S256x32.Idx → Ideal .bf16)
    = truncf (F := Ideal) .bf16 (transpose S256x32 [1, 0] (m ((c : Thread nD τ).loc main_arg3) : S32x256.Idx → Ideal .f32) transposes_S32x256_S256x32_1_0) bitsLt_bf16_f32 := by
  dsimp only [V, hostOps0]; after_results; try rfl

theorem V_At (c : Dev nD) : (V m c main_v12 : S256x32.Idx → Ideal .f32)
    = transpose S256x32 [1, 0] (m ((c : Thread nD τ).loc main_arg1) : S32x256.Idx → Ideal .f32) transposes_S32x256_S256x32_1_0 := by
  dsimp only [V, hostOps0]; after_results; try rfl

theorem V_Ab (c : Dev nD) : (V m c main_v13 : S32x256.Idx → Ideal .bf16)
    = truncf (F := Ideal) .bf16 (m ((c : Thread nD τ).loc main_arg1) : S32x256.Idx → Ideal .f32) bitsLt_bf16_f32 := by
  dsimp only [V, hostOps0]; after_results; try rfl

/-! ## The result array -/

/-- The specification of the argument arrays as the kernel's program finds them. -/
def result (c : Dev nD) : S2x1024x256x256.Idx → Ideal .f32 :=
  gram (m ((c : Thread nD τ).loc main_arg0)) (m ((c : Thread nD τ).loc main_arg1)) (m ((c : Thread nD τ).loc main_arg3))
    (m ((c : Thread nD τ).loc main_arg4)) (lamEye (m ((c : Thread nD τ).loc main_arg2)))

/-- The printed index maps over the 32 grid points: the slab of x moves with the output block along the batch and
    sequence axes, the five small arrays stay at block 0, the output's last two block indices are 0, and its first
    two stay in range. -/
theorem idx_facts : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 4) = 0 ∧ win0_6.index t (3 : Fin 4) = 0
    ∧ win0_6.index t (0 : Fin 4) ≤ 1 ∧ win0_6.index t (1 : Fin 4) ≤ 15 :=
  (by decide +kernel : ∀ t : Fin grid0.N, _)

/-- Every (batch entry, 64-row block) pair is some point's output block. -/
theorem idx_onto : ∀ (q0 : Fin 2) (q1 : Fin 16), ∃ t : Fin cfg0.N, win0_6.index t = ![q0.val, q1.val, 0, 0] :=
  (by decide +kernel : ∀ (q0 : Fin 2) (q1 : Fin 16), ∃ t : Fin grid0.N, win0_6.index t = ![q0.val, q1.val, 0, 0])

/-- What point t writes back is block t of the result. -/
theorem flushed_eq (c : Dev nD) (t : Fin cfg0.N) :
    (dats m 0 c).flushed 6 t = ((cfg0.win 6).blk t).view.read (Elt Ideal) (result m c) := by
  rw [Cert.KernelIdeal.Value.flushed6_A,
    Slab.out_eq_slab c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)]
  obtain ⟨e00, e01, e02, e10, e11, e20, e21, e30, e31, e40, e41, e50, e51, e62, e63, b0, b1⟩ := idx_facts t
  funext y
  obtain ⟨u, s, i, j, rfl⟩ : ∃ (u : Fin 1) (s : Fin 64) (i j : Fin 256), y = ix4 u s i j := ⟨y 0, y 1, y 2, y 3, eq_ix4 y⟩
  have hb : win0_6.index t (0 : Fin 4) < 2 := by omega
  have hs : win0_6.index t (1 : Fin 4) * 64 + s.val < 1024 := by have := s.isLt; omega
  have hemb : ((cfg0.win 6).blk t).view.emb (ix4 u s i j)
      = ix4 (⟨win0_6.index t (0 : Fin 4), hb⟩ : Fin 2) (⟨win0_6.index t (1 : Fin 4) * 64 + s.val, hs⟩ : Fin 1024) i j := by
    funext a; apply Fin.ext
    match a with
    | ⟨0, _⟩ => show win0_6.index t (0 : Fin 4) * 1 + 1 * u.val = win0_6.index t (0 : Fin 4); have := u.isLt; omega
    | ⟨1, _⟩ => show win0_6.index t (1 : Fin 4) * 64 + 1 * s.val = win0_6.index t (1 : Fin 4) * 64 + s.val; omega
    | ⟨2, _⟩ => show win0_6.index t (2 : Fin 4) * 256 + 1 * i.val = i.val; omega
    | ⟨3, _⟩ => show win0_6.index t (3 : Fin 4) * 256 + 1 * j.val = j.val; omega
  show slab (iblk m c 0 t) (iblk m c 1 t) (iblk m c 2 t) (iblk m c 3 t) (iblk m c 4 t) (iblk m c 5 t) (ix4 u s i j)
    = result m c (((cfg0.win 6).blk t).view.emb (ix4 u s i j))
  rw [hemb]
  show slabAt (iblk m c 0 t) (iblk m c 1 t) (iblk m c 2 t) (iblk m c 3 t) (iblk m c 4 t) (iblk m c 5 t) s i j
    = gramAt (m ((c : Thread nD τ).loc main_arg0)) (m ((c : Thread nD τ).loc main_arg1)) (m ((c : Thread nD τ).loc main_arg3))
        (m ((c : Thread nD τ).loc main_arg4)) (lamEye (m ((c : Thread nD τ).loc main_arg2)))
        (⟨win0_6.index t (0 : Fin 4), hb⟩ : Fin 2) (⟨win0_6.index t (1 : Fin 4) * 64 + s.val, hs⟩ : Fin 1024) i j
  refine slabAt_eq_gramAt (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg3))
    (m ((c : Thread nD τ).loc main_arg4)) (lamEye (m ((c : Thread nD τ).loc main_arg2)))
    (⟨win0_6.index t (0 : Fin 4), hb⟩ : Fin 2) (⟨win0_6.index t (1 : Fin 4) * 64 + s.val, hs⟩ : Fin 1024) s i j
    (fun d => ?_) (fun d r => ?_) (fun p r => ?_) (fun r q => ?_) (fun r => ?_) (fun p q => ?_)
  · -- the slab of x
    show V m c main_arg0 (((cfg0.win 0).blk t).view.emb (ix3 (0 : Fin 1) s d)) = _
    rw [V_main_arg0]
    refine congrArg _ (funext fun a => Fin.ext ?_)
    match a with
    | ⟨0, _⟩ => show win0_0.index t (0 : Fin 3) * 1 + 1 * 0 = win0_6.index t (0 : Fin 4); omega
    | ⟨1, _⟩ => show win0_0.index t (1 : Fin 3) * 64 + 1 * s.val = win0_6.index t (1 : Fin 4) * 64 + s.val; omega
    | ⟨2, _⟩ => show win0_0.index t (2 : Fin 3) * 256 + 1 * d.val = d.val; omega
  · -- the transposed projection
    show V m c main_v11 (((cfg0.win 1).blk t).view.emb (ix2 d r)) = _
    have h : ((cfg0.win 1).blk t).view.emb (ix2 d r) = ix2 d r := by
      funext a; apply Fin.ext
      match a with
      | ⟨0, _⟩ => show win0_1.index t (0 : Fin 2) * 256 + 1 * d.val = d.val; omega
      | ⟨1, _⟩ => show win0_1.index t (1 : Fin 2) * 32 + 1 * r.val = r.val; omega
    rw [h, V_Wt]
    exact transpose_ix2_apply _ _ d r
  · -- the transposed table
    show V m c main_v12 (((cfg0.win 2).blk t).view.emb (ix2 p r)) = _
    have h : ((cfg0.win 2).blk t).view.emb (ix2 p r) = ix2 p r := by
      funext a; apply Fin.ext
      match a with
      | ⟨0, _⟩ => show win0_2.index t (0 : Fin 2) * 256 + 1 * p.val = p.val; omega
      | ⟨1, _⟩ => show win0_2.index t (1 : Fin 2) * 32 + 1 * r.val = r.val; omega
    rw [h, V_At]
    exact transpose_ix2_apply _ _ p r
  · -- the table
    show V m c main_v13 (((cfg0.win 3).blk t).view.emb (ix2 r q)) = _
    have h : ((cfg0.win 3).blk t).view.emb (ix2 r q) = ix2 r q := by
      funext a; apply Fin.ext
      match a with
      | ⟨0, _⟩ => show win0_3.index t (0 : Fin 2) * 32 + 1 * r.val = r.val; omega
      | ⟨1, _⟩ => show win0_3.index t (1 : Fin 2) * 256 + 1 * q.val = q.val; omega
    rw [h, V_Ab]
    rfl
  · -- the bias as a one-row array
    show V m c main_v9 (((cfg0.win 4).blk t).view.emb (ix2 (0 : Fin 1) r)) = _
    have h : ((cfg0.win 4).blk t).view.emb (ix2 (0 : Fin 1) r) = ix2 (0 : Fin 1) r := by
      funext a; apply Fin.ext
      match a with
      | ⟨0, _⟩ => show win0_4.index t (0 : Fin 2) * 1 + 1 * 0 = 0; omega
      | ⟨1, _⟩ => show win0_4.index t (1 : Fin 2) * 32 + 1 * r.val = r.val; omega
    rw [h, V_bias]
    exact shapeCast_a_1a_apply _ _ (0 : Fin 1) r
  · -- the table E
    show V m c main_v8 (((cfg0.win 5).blk t).view.emb (ix2 p q)) = _
    have h : ((cfg0.win 5).blk t).view.emb (ix2 p q) = ix2 p q := by
      funext a; apply Fin.ext
      match a with
      | ⟨0, _⟩ => show win0_5.index t (0 : Fin 2) * 256 + 1 * p.val = p.val; omega
      | ⟨1, _⟩ => show win0_5.index t (1 : Fin 2) * 256 + 1 * q.val = q.val; omega
    rw [h, V_E]

/-- An index of the result array is in point t's block iff each coordinate is in the block's range on its axis. -/
theorem mem_blk (t : Fin cfg0.N) (i : S2x1024x256x256.Idx) :
    i ∈ ((cfg0.win 6).blk t).view.set ↔ ∀ a : Fin 4, win0_6.index t a * S1x64x256x256.size a ≤ (i a).val
      ∧ (i a).val < win0_6.index t a * S1x64x256x256.size a + S1x64x256x256.size a := by
  show i ∈ ((View.whole main_v14).slice (win0_6.rect t)).set ↔ _
  rw [View.set_slice_whole, Rect.mem_set_unit]
  exact Iff.rfl

/-- The 32 blocks tile the result array. -/
theorem covered (i : S2x1024x256x256.Idx) :
    ∃ t : Fin cfg0.N, (cfg0.win 6).flush t = true ∧ i ∈ ((cfg0.win 6).blk t).view.set := by
  have hi0 : (i 0).val < 2 := (i 0).isLt
  have hi1 : (i 1).val < 1024 := (i 1).isLt
  have hi2 : (i 2).val < 256 := (i 2).isLt
  have hi3 : (i 3).val < 256 := (i 3).isLt
  obtain ⟨t, ht⟩ := idx_onto ⟨(i 0).val, hi0⟩ ⟨(i 1).val / 64, by omega⟩
  have q0 : win0_6.index t (0 : Fin 4) = (i 0).val := congrFun ht 0
  have q1 : win0_6.index t (1 : Fin 4) = (i 1).val / 64 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 64 ≤ (i 1).val ∧ (i 1).val < win0_6.index t (1 : Fin 4) * 64 + 64; omega
  | ⟨2, _⟩ => show win0_6.index t (2 : Fin 4) * 256 ≤ (i 2).val ∧ (i 2).val < win0_6.index t (2 : Fin 4) * 256 + 256; omega
  | ⟨3, _⟩ => show win0_6.index t (3 : Fin 4) * 256 ≤ (i 3).val ∧ (i 3).val < win0_6.index t (3 : Fin 4) * 256 + 256; omega

/-- After the run the result array is the specification of the argument arrays. -/
theorem final (c : Dev nD) : (dats m 0 c).arrAt 6 cfg0.N = result m c :=
  (dats m 0 c).arrAt_eq_of_cover 6 (result m c) (fun t _ => flushed_eq m c t) covered

/-- The kernel's run: every weakly fair execution terminates with the result array at the specification and the
    arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Gram.KernelValue

end
-- ==== Proof.GramLaw.lean ====
/-
  The one algebraic law between the two programs. Both compute, for a position (b, s) and a pair of
  feature indices (i, j), a sum over the rank index r of a product of three numbers: the two table
  entries a = A[r, i], a' = A[r, j] and the modulation μ = tanh(...)[b, s, r], the last one twice.
  The kernel groups the product as (a · (μ · μ)) · a' (the squared modulation scales the transposed
  table, then the table is contracted against); the reference groups it as (μ · a) · (μ · a') (the
  table is modulated once, then contracted against itself). On the extended reals multiplication is
  commutative and associative at every value, the infinities and zero included, so the two groupings
  agree with no finiteness assumption.
-/
import Mathlib.Data.EReal.Inv

namespace Cert.Gram

/-- (a · (μ · μ)) · a' = (μ · a) · (μ · a') for all extended reals. -/
theorem term_eq (a a' μ : EReal) : (a * (μ * μ)) * a' = (μ * a) * (μ * a') := by
  rw [mul_mul_mul_comm μ a μ a', mul_comm a (μ * μ), mul_assoc]

end Cert.Gram
-- ==== Proof.RefValue.lean ====
/-
  The reference computes the specification.

  The reference forms the modulation mu[b, s, r] = tanh(sum_d x[b, s, d] * W[r, d] + bias[r]), spreads it against the
  table to the rank-4 array M[b, s, r, q] = mu[b, s, r] * A[r, q], and contracts M with itself over r, batched over
  (b, s): out[b, s, i, j] = sum_r M[b, s, r, i] * M[b, s, r, j], then adds the table E[i, j]. Term by term
  (mu * A[r, i]) * (mu * A[r, j]) is the specification's (A[r, i] * (mu * mu)) * A[r, j] (GramLaw).
-/
import proofs.«178066_j83923660964339_2_alg».proof.Proof.Gen.ReferenceIdeal.Read
import proofs.«178066_j83923660964339_2_alg».proof.Proof.GramSpec
import proofs.«178066_j83923660964339_2_alg».proof.Proof.GramLaw

noncomputable section

open scoped BigOperators

namespace Cert.Gram.Ref

open Cert.ReferenceIdeal Cert.ReferenceIdeal.Gen Cert.ReferenceIdeal.Read Idealize.ShloMosaic Idealize.ShloMosaic.ValueIdx
open Cert.Gram

variable (x0 : (⟨S2x1024x256, .f32⟩ : BufTy).Contents (Elt Ideal)) (x1 x3 : (⟨S32x256, .f32⟩ : BufTy).Contents (Elt Ideal))
  (x2 : (⟨S_, .f32⟩ : BufTy).Contents (Elt Ideal)) (x4 : (⟨S32, .f32⟩ : BufTy).Contents (Elt Ideal))

/-- The modulated table at (b, s, r, q): the modulation times the table's entry. -/
theorem modTable_apply (b : Fin 2) (s : Fin 1024) (r : Fin 32) (q : Fin 256) :
    val_main_v9 (F := Ideal) x0 x1 x3 x4 (ix4 b s r q) = modulation x0 x3 x4 b s r * x1 (ix2 r q) := by
  have e4 : ∀ k : Fin 256, lidx_main_v0 (idx_main_v5 (idx_main_v7 (ix4 b s r q))) k = ix3 b s k := fun k =>
    funext fun a => Fin.ext (by match a with | ⟨0, _⟩ => rfl | ⟨1, _⟩ => rfl | ⟨2, _⟩ => rfl)
  have e5 : ∀ k : Fin 256, ridx_main_v0 (idx_main_v5 (idx_main_v7 (ix4 b s r q))) k = ix2 r k := fun k =>
    funext fun a => Fin.ext (by match a with | ⟨0, _⟩ => rfl | ⟨1, _⟩ => rfl)
  have e6 : idx_main_v1 (idx_main_v2 (idx_main_v5 (idx_main_v7 (ix4 b s r q)))) = ix1 r :=
    funext fun a => Fin.ext (by match a with | ⟨0, _⟩ => rfl)
  have e7 : idx_main_v6 (idx_main_v8 (ix4 b s r q)) = ix2 r q :=
    funext fun a => Fin.ext (by match a with | ⟨0, _⟩ => rfl | ⟨1, _⟩ => rfl)
  rw [val_main_v9_apply, val_main_v7_apply, val_main_v5_apply, val_main_v4_apply, val_main_v3_apply, val_main_v0_apply,
    val_main_v2_apply, val_main_v1_apply, val_main_v8_apply, val_main_v6_apply]
  simp only [e4, e5, e6, e7]
  rfl

/-- The reference's result array is the specification, with E the table the reference builds from the scalar argument. -/
theorem ref_eq_gram :
    val_main_v22 (F := Ideal) x0 x1 x2 x3 x4 = gram x0 x1 x3 x4 (val_main_v19 (F := Ideal) x2) := by
  funext y
  obtain ⟨b, s, i, j, rfl⟩ : ∃ (b : Fin 2) (s : Fin 1024) (i j : Fin 256), y = ix4 b s i j := ⟨y 0, y 1, y 2, y 3, eq_ix4 y⟩
  have e1 : ∀ r : Fin 32, lidx_main_v10 (ix4 b s i j) r = ix4 b s r i := fun r =>
    funext fun a => Fin.ext (by match a with | ⟨0, _⟩ => rfl | ⟨1, _⟩ => rfl | ⟨2, _⟩ => rfl | ⟨3, _⟩ => rfl)
  have e2 : ∀ r : Fin 32, ridx_main_v10 (ix4 b s i j) r = ix4 b s r j := fun r =>
    funext fun a => Fin.ext (by match a with | ⟨0, _⟩ => rfl | ⟨1, _⟩ => rfl | ⟨2, _⟩ => rfl | ⟨3, _⟩ => rfl)
  have e3 : idx_main_v20 (idx_main_v21 (ix4 b s i j)) = ix2 i j :=
    funext fun a => Fin.ext (by match a with | ⟨0, _⟩ => rfl | ⟨1, _⟩ => rfl)
  rw [gram_ix4, val_main_v22_apply, val_main_v10_apply, val_main_v21_apply, val_main_v20_apply]
  simp only [e1, e2, e3, modTable_apply]
  unfold gramAt
  refine congrArg₂ (· + ·) (Finset.sum_congr rfl fun r _ => ?_) rfl
  exact (term_eq _ _ _).symm

end Cert.Gram.Ref

end
-- ==== Proof.lean ====
/-
  A position-modulated low-rank Gram matrix, computed two ways.

  Arguments: sequences x[b, s, d] (2 x 1024 x 256), a table A[r, i] (32 x 256), a scalar log_lambda, a projection
  W[r, d] (32 x 256) and a bias[r]. With the modulation mu[b, s, r] = tanh(sum_d x[b, s, d] * W[r, d] + bias[r]) and the
  table E = exp(log_lambda) times the 256 x 256 identity pattern, both programs return
      out[b, s, i, j] = sum_r A[r, i] * A[r, j] * mu[b, s, r]^2 + E[i, j].

  The kernel scales the transposed table by the squared modulation and multiplies by the table, slab by slab of 64
  positions, eight rows at a time: each term is (A[r, i] * (mu * mu)) * A[r, j]. The reference modulates the table once
  and contracts the modulated table with itself: each term is (mu * A[r, i]) * (mu * A[r, j]). On the extended reals the
  product is commutative and associative at every value, so the terms agree one by one and no finiteness of the inputs
  is needed; the sums over r are over the same 32 terms in the same order, and the table E is built by the same host
  operations in both programs.

  The modules: GramLaw (the two groupings of a term), GramSpec (the result as one function of the argument arrays, and
  the same over one grid point's arrays), ChunkValue (eight rows of the kernel's body at an index), SlabValue (a grid
  point's output block), KernelValue (the 32 blocks tile the result array: the kernel's run), RefValue (the reference's
  run). The kernel's idealization rewrote nothing, so it is the kernel's own text read on the extended reals.
-/
import proofs.«178066_j83923660964339_2_alg».proof.Defs
import proofs.«178066_j83923660964339_2_alg».proof.Proof.Gen.Kernel
import proofs.«178066_j83923660964339_2_alg».proof.Proof.Gen.Kernel.Skeleton
import proofs.«178066_j83923660964339_2_alg».proof.Proof.Gen.Kernel.Launch
import proofs.«178066_j83923660964339_2_alg».proof.Proof.Gen.Kernel.Points
import proofs.«178066_j83923660964339_2_alg».proof.Proof.Gen.Kernel.Frame
import proofs.«178066_j83923660964339_2_alg».proof.Proof.Gen.KernelIdeal
import proofs.«178066_j83923660964339_2_alg».proof.Proof.Gen.KernelIdeal.Skeleton
import proofs.«178066_j83923660964339_2_alg».proof.Proof.Gen.KernelIdeal.Launch
import proofs.«178066_j83923660964339_2_alg».proof.Proof.Gen.KernelIdeal.Points
import proofs.«178066_j83923660964339_2_alg».proof.Proof.Gen.KernelIdeal.Frame
import proofs.«178066_j83923660964339_2_alg».proof.Proof.Gen.ReferenceIdeal
import proofs.«178066_j83923660964339_2_alg».proof.Proof.Gen.Pre_finite_inputs
import proofs.«178066_j83923660964339_2_alg».proof.Proof.Gen.KernelIdeal.Value
import proofs.«178066_j83923660964339_2_alg».proof.Proof.Gen.ReferenceIdeal.Run
import proofs.«178066_j83923660964339_2_alg».proof.Proof.Gen.ReferenceIdeal.Read
import proofs.«178066_j83923660964339_2_alg».proof.Proof.KernelValue
import proofs.«178066_j83923660964339_2_alg».proof.Proof.RefValue
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- The table E: the kernel's host prefix and the reference build it by the same operations. -/
theorem lamEye_eq (ll : Cert.KernelIdeal.S_.Idx → Ideal .f32) :
    Cert.Gram.KernelValue.lamEye ll = Cert.ReferenceIdeal.Read.val_main_v19 (F := Ideal) ll := rfl

/-- From memories agreeing on the arguments both programs end with the result array at the specification of those
    arguments. -/
theorem algebraic : Cert.algebraic_KernelIdeal_ReferenceIdeal := by
  intro m ρ m' ρ' _ hagree
  refine ⟨fun c => Cert.Gram.KernelValue.result m c, Cert.Gram.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Gram.Ref.ref_eq_gram,
    (hagree c).1, (hagree c).2.1, (hagree c).2.2.1, (hagree c).2.2.2.1, (hagree c).2.2.2.2, ← lamEye_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
